-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S8192x16384 : Shape := ⟨2, ![8192, 16384]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x8192 .f32) (main_arg5 : FVec F S2048 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x8192 .f32) (main_arg1 : FVec F S8x8192 .f32) (main_arg2 : FVec F S8192x16384 .f32) (main_arg3 : FVec F S8192 .f32) (main_arg4 : FVec F S2048x8192 .f32) (main_arg5 : FVec F S2048 .f32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S8x8192 .f32 := Host.absf main_arg1
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  let main_c_1 : IVec S_ 1 := constantI S_ 1 1#1
  let main_v7 : IVec S_ 1 := (fun x v => Host.reduce IntOp.andi x v reducesTo_S8x8192_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S8x8192 : Shape := ⟨2, ![8, 8192]⟩
abbrev S8192x16384 : Shape := ⟨2, ![8192, 16384]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S1x2048 : Shape := ⟨2, ![1, 2048]⟩
abbrev S256x16384 : Shape := ⟨2, ![256, 16384]⟩
abbrev S1x256 : Shape := ⟨2, ![1, 256]⟩
abbrev S8x256 : Shape := ⟨2, ![8, 256]⟩
abbrev S256x8192 : Shape := ⟨2, ![256, 8192]⟩
abbrev S8x2048 : Shape := ⟨2, ![8, 2048]⟩
abbrev S512x8192 : Shape := ⟨2, ![512, 8192]⟩
abbrev S1x512 : Shape := ⟨2, ![1, 512]⟩
abbrev S8x512 : Shape := ⟨2, ![8, 512]⟩

abbrev nBuf : Space → Nat
  | .hbm => 10
  | .vmem => 15
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8192x16384, .f32⟩
  | .hbm, ⟨3, _⟩ => ⟨S8192, .f32⟩
  | .hbm, ⟨4, _⟩ => ⟨S2048x8192, .f32⟩
  | .hbm, ⟨5, _⟩ => ⟨S2048, .f32⟩
  | .hbm, ⟨6, _⟩ => ⟨S1x8192, .f32⟩
  | .hbm, ⟨7, _⟩ => ⟨S1x2048, .f32⟩
  | .hbm, ⟨8, _⟩ => ⟨S8x8192, .f32⟩
  | .hbm, ⟨9, _⟩ => ⟨S8x2048, .f32⟩
  | .local _ .vmem, ⟨0, _⟩ => ⟨S8x8192, .f32⟩
  | .local _ .vmem, ⟨1, _⟩ => ⟨S8x8192, .f32⟩
  | .local _ .vmem, ⟨2, _⟩ => ⟨S256x16384, .f32⟩
  | .local _ .vmem, ⟨3, _⟩ => ⟨S256x16384, .f32⟩
  | .local _ .vmem, ⟨4, _⟩ => ⟨S1x256, .f32⟩
  | .local _ .vmem, ⟨5, _⟩ => ⟨S1x256, .f32⟩
  | .local _ .vmem, ⟨6, _⟩ => ⟨S8x256, .f32⟩
  | .local _ .vmem, ⟨7, _⟩ => ⟨S8x256, .f32⟩
  | .local _ .vmem, ⟨8, _⟩ => ⟨S8x8192, .f32⟩
  | .local _ .vmem, ⟨9, _⟩ => ⟨S512x8192, .f32⟩
  | .local _ .vmem, ⟨10, _⟩ => ⟨S512x8192, .f32⟩
  | .local _ .vmem, ⟨11, _⟩ => ⟨S1x512, .f32⟩
  | .local _ .vmem, ⟨12, _⟩ => ⟨S1x512, .f32⟩
  | .local _ .vmem, ⟨13, _⟩ => ⟨S8x512, .f32⟩
  | .local _ .vmem, ⟨14, _⟩ => ⟨S8x512, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8192_S1x8192 : S8192.ShapeCasts S1x8192
  shapeCasts_S2048_S1x2048 : S2048.ShapeCasts S1x2048
  inb_S8x8192_S8x8192_0_0 : ∀ a, (![0, 0] : Fin 2 → Nat) a + S8x8192.size a ≤ S8x8192.size a
  h_S8x8192 : 0 < S8x8192.numel
  bitsLt_bf16_f32 : FTy.bits .bf16 < FTy.bits .f32
  inb_S256x16384_S256x8192_0_0 : ∀ a, (![0, 0] : Fin 2 → Nat) a + S256x8192.size a ≤ S256x16384.size a
  h_S256x8192 : 0 < S256x8192.numel
  inb_S256x16384_S256x8192_0_8192 : ∀ a, (![0, 8192] : Fin 2 → Nat) a + S256x8192.size a ≤ S256x16384.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S8x8192_S8x8192 : S8x8192.ShapeCasts S8x8192
  inb_S512x8192_S512x8192_0_0 : ∀ a, (![0, 0] : Fin 2 → Nat) a + S512x8192.size a ≤ S512x8192.size a
  h_S512x8192 : 0 < S512x8192.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  dot_S8x8192_S256x8192_S8x256_1_1_0_0_n_n_wf : DotDims.WF S8x8192 S256x8192 S8x256 [1] [1] [0] [0] [] []
  dot_S8x8192_S512x8192_S8x512_1_1_0_0_n_n_wf : DotDims.WF S8x8192 S512x8192 S8x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S8x8192.size a
  hwx0_0 : ∀ i : grid0.Coords, EltTy.bits .f32 = 32 ∨ (Rect.block (s := S8x8192) S8x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8192.size a ≤ S8x8192.size a
  hwx0_1 : ∀ i : grid0.Coords, EltTy.bits .f32 = 32 ∨ (Rect.block (s := S8x8192) S8x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16384.size a ≤ S8192x16384.size a
  hwx0_2 : ∀ i : grid0.Coords, EltTy.bits .f32 = 32 ∨ (Rect.block (s := S8192x16384) S256x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x8192.size a
  hwx0_4 : ∀ i : grid0.Coords, EltTy.bits .f32 = 32 ∨ (Rect.block (s := S8x8192) S8x256.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x8192.size a ≤ S8x8192.size a
  hwx1_0 : ∀ i : grid1.Coords, EltTy.bits .f32 = 32 ∨ (Rect.block (s := S8x8192) S8x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8192.size a ≤ S2048x8192.size a
  hwx1_1 : ∀ i : grid1.Coords, EltTy.bits .f32 = 32 ∨ (Rect.block (s := S2048x8192) S512x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512.size a ≤ S8x2048.size a
  hwx1_3 : ∀ i : grid1.Coords, EltTy.bits .f32 = 32 ∨ (Rect.block (s := S8x2048) S8x512.size (cc1_transform_3 i) (hinb1_3 i)).WholeWords (EltTy.packing .f32)

variable [Facts₀]

def dot_S8x8192_S256x8192_S8x256_1_1_0_0_n_n : DotDims S8x8192 S256x8192 S8x256 where
  lhsContracting := [1]
  rhsContracting := [1]
  lhsNonContracting := [0]
  rhsNonContracting := [0]
  lhsBatch := []
  rhsBatch := []
  wf := dot_S8x8192_S256x8192_S8x256_1_1_0_0_n_n_wf
def dot_S8x8192_S512x8192_S8x512_1_1_0_0_n_n : DotDims S8x8192 S512x8192 S8x512 where
  lhsContracting := [1]
  rhsContracting := [1]
  lhsNonContracting := [0]
  rhsNonContracting := [0]
  lhsBatch := []
  rhsBatch := []
  wf := dot_S8x8192_S512x8192_S8x512_1_1_0_0_n_n_wf

abbrev win0_0 : Pipeline.Window sig grid0 :=
  Pipeline.Window.ofSpec (Memref.whole main_arg0) S8x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S8x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x8192 : Shape := ⟨2, ![8, 8192]⟩
abbrev S8192x16384 : Shape := ⟨2, ![8192, 16384]⟩
abbrev S8192 : Shape := ⟨1, ![8192]⟩
abbrev S2048x8192 : Shape := ⟨2, ![2048, 8192]⟩
abbrev S2048 : Shape := ⟨1, ![2048]⟩
abbrev S8192x8192 : Shape := ⟨2, ![8192, 8192]⟩
abbrev S1x8192 : Shape := ⟨2, ![1, 8192]⟩
abbrev S8x2048 : Shape := ⟨2, ![8, 2048]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8192x16384, .f32⟩
  | .hbm, ⟨3, _⟩ => ⟨S8192, .f32⟩
  | .hbm, ⟨4, _⟩ => ⟨S2048x8192, .f32⟩
  | .hbm, ⟨5, _⟩ => ⟨S2048, .f32⟩
  | .hbm, ⟨6, _⟩ => ⟨S8192x8192, .f32⟩
  | .hbm, ⟨7, _⟩ => ⟨S8192x8192, .f32⟩
  | .hbm, ⟨8, _⟩ => ⟨S8x8192, .f32⟩
  | .hbm, ⟨9, _⟩ => ⟨S8x8192, .f32⟩
  | .hbm, ⟨10, _⟩ => ⟨S8x8192, .f32⟩
  | .hbm, ⟨11, _⟩ => ⟨S1x8192, .f32⟩
  | .hbm, ⟨12, _⟩ => ⟨S8x8192, .f32⟩
  | .hbm, ⟨13, _⟩ => ⟨S8x8192, .f32⟩
  | .hbm, ⟨14, _⟩ => ⟨S8x8192, .f32⟩
  | .hbm, ⟨15, _⟩ => ⟨S8x2048, .f32⟩
  | .hbm, ⟨16, _⟩ => ⟨S1x2048, .f32⟩
  | .hbm, ⟨17, _⟩ => ⟨S8x2048, .f32⟩
  | .hbm, ⟨18, _⟩ => ⟨S8x2048, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S8192x16384_S8192x8192_0_0 : S8192x16384.Slices ![0, 0] S8192x8192
  slices_S8192x16384_S8192x8192_0_8192 : S8192x16384.Slices ![0, 8192] S8192x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  dot_S8x8192_S8192x8192_S8x8192_1_1_0_0_n_n_wf : DotDims.WF S8x8192 S8192x8192 S8x8192 [1] [1] [0] [0] [] []
  dot_S8x8192_S2048x8192_S8x2048_1_1_0_0_n_n_wf : DotDims.WF S8x8192 S2048x8192 S8x2048 [1] [1] [0] [0] [] []

variable [Facts₀]

def dot_S8x8192_S8192x8192_S8x8192_1_1_0_0_n_n : DotDims S8x8192 S8192x8192 S8x8192 where
  lhsContracting := [1]
  rhsContracting := [1]
  lhsNonContracting := [0]
  rhsNonContracting := [0]
  lhsBatch := []
  rhsBatch := []
  wf := dot_S8x8192_S8192x8192_S8x8192_1_1_0_0_n_n_wf
def dot_S8x8192_S2048x8192_S8x2048_1_1_0_0_n_n : DotDims S8x8192 S2048x8192 S8x2048 where
  lhsContracting := [1]
  rhsContracting := [1]
  lhsNonContracting := [0]
  rhsNonContracting := [0]
  lhsBatch := []
  rhsBatch := []
  wf := dot_S8x8192_S2048x8192_S8x2048_1_1_0_0_n_n_wf

class Facts : Prop extends Facts₀ where

variable [Facts]
-- ==== Proof.KernelRun.lean ====
/-
  The two-layer cell as a whole program: its run, with the result buffer named.

  The program is two host reshapes (each bias vector as a one-row matrix), then two kernel regions one after the other:
  the first fills the hidden-state array, the second reads it and fills the result array.  Every weakly fair execution
  terminates without a fault; at the end the result buffer holds what the second region's write-backs leave in it, and
  the six argument arrays are as launched.  The contents at the three boundaries (after the reshapes, after the first
  region, after the second) are the fold through the program: a region replaces its own arrays by what its points wrote
  back and leaves every other buffer alone.
-/
import proofs.«129430_j69879117906300_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v3) = V3 m ρ c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.HiddenTile.lean ====
/-
  One tile of the hidden state.

  The first kernel's body, at a grid point, holds the whole input x and the whole previous state h (8 rows of 8192),
  256 rows of the joined weight matrix cut into its two halves w₀ (the columns that act on x) and w₁ (those that act on
  h), and the matching 256 entries of the bias as a one-row matrix.  Roundings to a narrower float format are the
  identity on the extended reals, a matrix product of rows with rows into the zero accumulator is the plain sum of
  products, and a one-row matrix repeated over 8 rows reads its one row.  So the stored tile at (p, q) is

      tanh ((Σ_k x (p, k) · w₀ (q, k)  +  Σ_k h (p, k) · w₁ (q, k))  +  bias (0, q)).
-/
import proofs.«129430_j69879117906300_2_alg».proof.Proof.Gen.KernelIdeal.Skeleton
import proofs.«129430_j69879117906300_2_alg».proof.Proof.LibMatmulRows
import Idealize.ShloMosaic.Lib.Pipeline.Value
import Idealize.ShloMosaic.Lib.ValueLayout

noncomputable section

namespace Cert.KernelIdeal.Tile

open Idealize.ShloMosaic Idealize.ShloMosaic.ValueIdx Cert.KernelIdeal Cert.KernelIdeal.Gen

/-- Rows of x against 256 rows of one half of the weights, into the zero accumulator, at (p, q). -/
theorem rows256_apply (l : FVec Ideal S8x8192 .bf16) (r : FVec Ideal S256x8192 .bf16) (p : Fin 8) (q : Fin 256) :
    matmul dot_S8x8192_S256x8192_S8x256_1_1_0_0_n_n none l r (constant S8x256 .f32 0x00000000#32) (ix2 p q)
      = ∑ k : Fin 8192, l (ix2 p k) * r (ix2 q k) :=
  Cert.Lib.matmulRows_zero_apply (A := 8) (K := 8192) (B := 256) Facts₀.dot_S8x8192_S256x8192_S8x256_1_1_0_0_n_n_wf l r p q

/-- The bias row repeated over the 8 batch rows, at (p, q). -/
theorem biasRow256_apply (b : Vec Ideal S1x256 .f32) (p : Fin 8) (q : Fin 256) :
    broadcastTo S8x256 (shapeCast S1x256 b Facts₀.shapeCasts_S1x256_S1x256) Facts₀.broadcasts_S1x256_S8x256 (ix2 p q)
      = b (ix2 (0 : Fin 1) q) := by
  rw [shapeCast_self]
  exact broadcastTo_1b_ab_apply (a := 8) (b := 256) b Facts₀.broadcasts_S1x256_S8x256 p q

/-- The stored tile of the hidden state at (p, q). -/
theorem hidden_tile (x h : Vec Ideal S8x8192 .f32) (w₀ w₁ : Vec Ideal S256x8192 .f32) (b : Vec Ideal S1x256 .f32)
    (p : Fin 8) (q : Fin 256) :
    k0_pay1 x h w₀ w₁ b (ix2 p q)
      = Ideal.tanh (((∑ k : Fin 8192, x (ix2 p k) * w₀ (ix2 q k)) + (∑ k : Fin 8192, h (ix2 p k) * w₁ (ix2 q k)))
          + b (ix2 (0 : Fin 1) q)) := by
  unfold k0_pay1
  refine congrArg Ideal.tanh ?_
  refine congrArg₂ (· + ·) (congrArg₂ (· + ·) ?_ ?_) ?_
  · exact rows256_apply _ _ p q
  · exact rows256_apply _ _ p q
  · exact biasRow256_apply b p q

end Cert.KernelIdeal.Tile

end
-- ==== Proof.RnnSpec.lean ====
/-
  One step of a recurrent cell with a linear read-out, on the extended reals.

  With a batch of 8 rows, an input x and a previous state h of width 8192 each, a joined weight matrix W of 8192 rows
  and 16384 columns (columns 0 … 8191 act on x, columns 8192 … 16383 on h), a bias β, a read-out matrix W₂ of 2048 rows
  and a read-out bias β₂:

      hidden (p, q) = tanh ((Σ_k x (p, k) · W (q, k)  +  Σ_k h (p, k) · W (q, 8192 + k))  +  β q)
      out    (p, o) = Σ_k hidden (p, k) · W₂ (o, k)  +  β₂ o

  Both programs compute exactly these two formulas, with the sums grouped in this way; nothing about finiteness is used.
-/
import Idealize.ShloMosaic.PureOps.Ideal
import Idealize.ShloMosaic.Lib.ValueIdx

noncomputable section

namespace Cert.Rnn

open Idealize.ShloMosaic Idealize.ShloMosaic.ValueIdx

/-- Column k of the half of the joined weight matrix that acts on the input. -/
abbrev colX (k : Fin 8192) : Fin 16384 := ⟨k.val, by have := k.isLt; omega⟩
/-- Column k of the half that acts on the previous state. -/
abbrev colH (k : Fin 8192) : Fin 16384 := ⟨8192 + k.val, by have := k.isLt; omega⟩

/-- The new hidden state at row p, unit q. -/
def hiddenAt (x h : FVec Ideal ⟨2, ![8, 8192]⟩ .f32) (W : FVec Ideal ⟨2, ![8192, 16384]⟩ .f32) (β : Fin 8192 → EReal)
    (p : Fin 8) (q : Fin 8192) : EReal :=
  Ideal.tanh (((∑ k : Fin 8192, x (ix2 p k) * W (ix2 q (colX k))) + (∑ k : Fin 8192, h (ix2 p k) * W (ix2 q (colH k)))) + β q)

/-- The new hidden state as an array. -/
def hidden (x h : FVec Ideal ⟨2, ![8, 8192]⟩ .f32) (W : FVec Ideal ⟨2, ![8192, 16384]⟩ .f32) (β : Fin 8192 → EReal) :
    FVec Ideal ⟨2, ![8, 8192]⟩ .f32 :=
  fun i => hiddenAt x h W β (i 0) (i 1)

/-- The read-out at row p, output o. -/
def outAt (hid : FVec Ideal ⟨2, ![8, 8192]⟩ .f32) (W₂ : FVec Ideal ⟨2, ![2048, 8192]⟩ .f32) (β₂ : Fin 2048 → EReal)
    (p : Fin 8) (o : Fin 2048) : EReal :=
  (∑ k : Fin 8192, hid (ix2 p k) * W₂ (ix2 o k)) + β₂ o

/-- The read-out as an array. -/
def out (hid : FVec Ideal ⟨2, ![8, 8192]⟩ .f32) (W₂ : FVec Ideal ⟨2, ![2048, 8192]⟩ .f32) (β₂ : Fin 2048 → EReal) :
    FVec Ideal ⟨2, ![8, 2048]⟩ .f32 :=
  fun i => outAt hid W₂ β₂ (i 0) (i 1)

theorem hidden_apply (x h : FVec Ideal ⟨2, ![8, 8192]⟩ .f32) (W : FVec Ideal ⟨2, ![8192, 16384]⟩ .f32) (β : Fin 8192 → EReal)
    (p : Fin 8) (q : Fin 8192) : hidden x h W β (ix2 p q) = hiddenAt x h W β p q := rfl

theorem out_apply (hid : FVec Ideal ⟨2, ![8, 8192]⟩ .f32) (W₂ : FVec Ideal ⟨2, ![2048, 8192]⟩ .f32) (β₂ : Fin 2048 → EReal)
    (p : Fin 8) (o : Fin 2048) : out hid W₂ β₂ (ix2 p o) = outAt hid W₂ β₂ p o := rfl

end Cert.Rnn

end
-- ==== Proof.HiddenArray.lean ====
/-
  The hidden-state array after the first kernel region.

  The region's grid has 32 points.  Point t holds all of x and h, rows 256·t … 256·t + 255 of the joined weight matrix and
  entries 256·t … 256·t + 255 of the bias row, and writes back columns 256·t … 256·t + 255 of the hidden state: at (p, q)
  the tile's value is the cell's hidden state at (p, 256·t + q).  The 32 column bands tile the 8 × 8192 array, so after
  the region the array is the cell's hidden state of the arrays as the region found them.
-/
import proofs.«129430_j69879117906300_2_alg».proof.Proof.Gen.KernelIdeal.Frame
import proofs.«129430_j69879117906300_2_alg».proof.Proof.HiddenTile
import proofs.«129430_j69879117906300_2_alg».proof.Proof.RnnSpec
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

theorem zeros2 : (![0, 0] : Fin 2 → Nat) = fun _ => 0 := funext fun a => by fin_cases a <;> rfl

/-! ### A tile, from the arrays its blocks are cut from -/

/-- If the body's five loads are cut from arrays X, H, Wt (rows 256·T …) and the bias row B (columns 256·T …), the stored
    tile at (p, q) is the cell's hidden state of those arrays at (p, 256·T + q). -/
theorem tile_of_arrays (X H : FVec Ideal ⟨2, ![8, 8192]⟩ .f32) (Wt : FVec Ideal ⟨2, ![8192, 16384]⟩ .f32)
    (B : FVec Ideal ⟨2, ![1, 8192]⟩ .f32)
    (x h : Vec Ideal S8x8192 .f32) (w : Vec Ideal S256x16384 .f32) (b : Vec Ideal S1x256 .f32) (T : Nat) (hT : T ≤ 31)
    (hx : x = X) (hh : h = H)
    (hw : ∀ (r : Fin 256) (k : Fin 16384), w (ix2 r k) = Wt (ix2 (⟨T * 256 + r.val, by have := r.isLt; omega⟩ : Fin 8192) k))
    (hb : ∀ r : Fin 256, b (ix2 (0 : Fin 1) r) = B (ix2 (0 : Fin 1) (⟨T * 256 + r.val, by have := r.isLt; omega⟩ : Fin 8192)))
    (p : Fin 8) (q : Fin 256) :
    k0_pay1 (View.ld x r0_0) (View.ld h r0_0) (View.ld w r0_1) (View.ld w r0_2) (View.ld b r0_3) (ix2 p q)
      = Cert.Rnn.hiddenAt X H Wt (fun j => B (ix2 (0 : Fin 1) j)) p (⟨T * 256 + q.val, by have := q.isLt; omega⟩ : Fin 8192) := by
  subst hx hh
  refine (Tile.hidden_tile _ _ _ _ _ p q).trans ?_
  unfold Cert.Rnn.hiddenAt
  have e1 : ∀ k : Fin 8192, View.ld w r0_1 (ix2 q k)
      = Wt (ix2 (⟨T * 256 + q.val, by have := q.isLt; omega⟩ : Fin 8192) (Cert.Rnn.colX k)) := fun k => by
    show w (r0_1.idx (ix2 q k)) = _
    have e : r0_1.idx (ix2 q k) = ix2 q (Cert.Rnn.colX k) := funext fun a => Fin.ext (by
      match a with
      | ⟨0, _⟩ => show 0 + 1 * q.val = q.val; omega
      | ⟨1, _⟩ => show 0 + 1 * k.val = k.val; omega)
    rw [e, hw]
  have e2 : ∀ k : Fin 8192, View.ld w r0_2 (ix2 q k)
      = Wt (ix2 (⟨T * 256 + q.val, by have := q.isLt; omega⟩ : Fin 8192) (Cert.Rnn.colH k)) := fun k => by
    show w (r0_2.idx (ix2 q k)) = _
    have e : r0_2.idx (ix2 q k) = ix2 q (Cert.Rnn.colH k) := funext fun a => Fin.ext (by
      match a with
      | ⟨0, _⟩ => show 0 + 1 * q.val = q.val; omega
      | ⟨1, _⟩ => show 8192 + 1 * k.val = 8192 + k.val; omega)
    rw [e, hw]
  have ex : ∀ k : Fin 8192, View.ld x r0_0 (ix2 p k) = x (ix2 p k) := fun k =>
    congrFun (View.ld_unit_zero (S := S8x8192) zeros2 _ x) _
  have eh : ∀ k : Fin 8192, View.ld h r0_0 (ix2 p k) = h (ix2 p k) := fun k =>
    congrFun (View.ld_unit_zero (S := S8x8192) zeros2 _ h) _
  have eb : View.ld b r0_3 (ix2 (0 : Fin 1) q) = b (ix2 (0 : Fin 1) q) :=
    congrFun (View.ld_unit_zero (S := S1x256) zeros2 _ b) _
  simp only [ex, eh, eb, e1, e2, hb]

/-! ### The region, at any entry contents -/

variable (V : (c : Dev nD) → (b : Ref sig .tc) → Buf (Elt Ideal) ((c : Thread nD τ).loc b))

/-- The cell's hidden state of the arrays as the region finds them; the bias is the one row of its [1, 8192] matrix. -/
abbrev hid (c : Dev nD) : S8x8192.Idx → Elt Ideal .f32 :=
  Cert.Rnn.hidden (V c main_arg0) (V c main_arg1) (V c main_arg2) (fun j => (V c main_v0 : S1x8192.Idx → Elt Ideal .f32) (ix2 (0 : Fin 1) j))

/-- The block indices over the grid: x and h are whole at every point; the weight rows, the bias columns and the
    output columns move together, one band per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) = 0 ∧ win0_4.index t (1 : Fin 2) ≤ 31 :=
  (by decide +kernel : ∀ t : Fin grid0.N, _)

/-- Every column band is some point's. -/
theorem idx_onto : ∀ q : Fin 32, ∃ t : Fin cfg0.N, win0_4.index t = ![0, q.val] :=
  (by decide +kernel : ∀ q : Fin 32, ∃ t : Fin grid0.N, win0_4.index t = ![0, q.val])

/-- Window 0's block is all of x. -/
theorem blk_x (c : Dev nD) (t : Fin cfg0.N) :
    (iblk0 V c 0 t : Vec Ideal S8x8192 .f32) = (V c main_arg0 : S8x8192.Idx → Elt Ideal .f32) := by
  obtain ⟨e0, e1, -⟩ := idx_facts t
  funext j
  unfold iblk0
  rw [View.read_apply]
  show (V c main_arg0 : S8x8192.Idx → Elt Ideal .f32) _ = V c main_arg0 j
  refine congrArg (V c main_arg0 : S8x8192.Idx → Elt Ideal .f32) ?_
  funext a
  apply Fin.ext
  match a with
  | ⟨0, _⟩ => show win0_0.index t (0 : Fin 2) * 8 + 1 * (j 0).val = (j 0).val; rw [e0]; omega
  | ⟨1, _⟩ => show win0_0.index t (1 : Fin 2) * 8192 + 1 * (j 1).val = (j 1).val; rw [e1]; omega

/-- Window 1's block is all of h. -/
theorem blk_h (c : Dev nD) (t : Fin cfg0.N) :
    (iblk0 V c 1 t : Vec Ideal S8x8192 .f32) = (V c main_arg1 : S8x8192.Idx → Elt Ideal .f32) := by
  obtain ⟨-, -, e0, e1, -⟩ := idx_facts t
  funext j
  unfold iblk0
  rw [View.read_apply]
  show (V c main_arg1 : S8x8192.Idx → Elt Ideal .f32) _ = V c main_arg1 j
  refine congrArg (V c main_arg1 : S8x8192.Idx → Elt Ideal .f32) ?_
  funext a
  apply Fin.ext
  match a with
  | ⟨0, _⟩ => show win0_1.index t (0 : Fin 2) * 8 + 1 * (j 0).val = (j 0).val; rw [e0]; omega
  | ⟨1, _⟩ => show win0_1.index t (1 : Fin 2) * 8192 + 1 * (j 1).val = (j 1).val; rw [e1]; omega

/-- Window 2's block is 256 rows of the joined weight matrix, from row 256·T. -/
theorem blk_w (c : Dev nD) (t : Fin cfg0.N) (T : Nat) (hT : win0_4.index t (1 : Fin 2) = T) (hT31 : T ≤ 31)
    (r : Fin 256) (k : Fin 16384) :
    (iblk0 V c 2 t : Vec Ideal S256x16384 .f32) (ix2 r k)
      = (V c main_arg2 : S8192x16384.Idx → Elt Ideal .f32) (ix2 (⟨T * 256 + r.val, by have := r.isLt; omega⟩ : Fin 8192) k) := by
  obtain ⟨-, -, -, -, e0, e1, -⟩ := idx_facts t
  unfold iblk0
  rw [View.read_apply]
  show (V c main_arg2 : S8192x16384.Idx → Elt Ideal .f32) _ = _
  refine congrArg (V c main_arg2 : S8192x16384.Idx → Elt Ideal .f32) ?_
  funext a
  apply Fin.ext
  match a with
  | ⟨0, _⟩ => show win0_2.index t (0 : Fin 2) * 256 + 1 * r.val = T * 256 + r.val; rw [e0, hT]; omega
  | ⟨1, _⟩ => show win0_2.index t (1 : Fin 2) * 16384 + 1 * k.val = k.val; rw [e1]; omega

/-- Window 3's block is 256 entries of the bias row, from column 256·T. -/
theorem blk_b (c : Dev nD) (t : Fin cfg0.N) (T : Nat) (hT : win0_4.index t (1 : Fin 2) = T) (hT31 : T ≤ 31)
    (r : Fin 256) :
    (iblk0 V c 3 t : Vec Ideal S1x256 .f32) (ix2 (0 : Fin 1) r)
      = (V c main_v0 : S1x8192.Idx → Elt Ideal .f32) (ix2 (0 : Fin 1) (⟨T * 256 + r.val, by have := r.isLt; omega⟩ : Fin 8192)) := by
  obtain ⟨-, -, -, -, -, -, e0, e1, -⟩ := idx_facts t
  unfold iblk0
  rw [View.read_apply]
  show (V c main_v0 : S1x8192.Idx → Elt Ideal .f32) _ = _
  refine congrArg (V c main_v0 : S1x8192.Idx → Elt Ideal .f32) ?_
  funext a
  apply Fin.ext
  match a with
  | ⟨0, _⟩ => show win0_3.index t (0 : Fin 2) * 1 + 1 * 0 = 0; rw [e0]
  | ⟨1, _⟩ => show win0_3.index t (1 : Fin 2) * 256 + 1 * r.val = T * 256 + r.val; rw [e1, hT]; omega

/-- An element of the output block at point t sits in the array at column 256·T + its own column. -/
theorem out_emb (t : Fin cfg0.N) (T : Nat) (hT : win0_4.index t (1 : Fin 2) = T) (hT31 : T ≤ 31) (p : Fin 8) (q : Fin 256) :
    (((cfg0.win 4).blk t).view.emb (ix2 p q) : S8x8192.Idx)
      = ix2 p (⟨T * 256 + q.val, by have := q.isLt; omega⟩ : Fin 8192) := by
  obtain ⟨-, -, -, -, -, -, -, -, e0, -⟩ := idx_facts t
  funext a
  apply Fin.ext
  match a with
  | ⟨0, _⟩ => show win0_4.index t (0 : Fin 2) * 8 + 1 * p.val = p.val; rw [e0]; omega
  | ⟨1, _⟩ => show win0_4.index t (1 : Fin 2) * 256 + 1 * q.val = T * 256 + q.val; rw [hT]; omega

/-- What point t writes back is its block of the cell's hidden state. -/
theorem flushed_eq (c : Dev nD) (t : Fin cfg0.N) :
    (dat0 V c).flushed 4 t = ((cfg0.win 4).blk t).view.read (Elt Ideal) (hid V c) := by
  show (cfg0.win 4).cut (grid0.coords t) ((dat0 V c).after 4 t) = _
  rw [after0_4]
  unfold out0_4
  rw [View.canon_unit_zero zeros2]
  have hT31 : win0_4.index t (1 : Fin 2) ≤ 31 := (idx_facts t).2.2.2.2.2.2.2.2.2
  funext j
  obtain ⟨p, q, rfl⟩ : ∃ (p : Fin 8) (q : Fin 256), j = ix2 p q := ⟨j 0, j 1, eq_ix2 j⟩
  show k0_pay1 (View.ld (iblk0 V c 0 t) r0_0) (View.ld (iblk0 V c 1 t) r0_0) (View.ld (iblk0 V c 2 t) r0_1)
      (View.ld (iblk0 V c 2 t) r0_2) (View.ld (iblk0 V c 3 t) r0_3) (ix2 p q)
    = hid V c (((cfg0.win 4).blk t).view.emb (ix2 p q))
  rw [out_emb t _ rfl hT31 p q]
  exact tile_of_arrays (V c main_arg0) (V c main_arg1) (V c main_arg2) (V c main_v0) (iblk0 V c 0 t) (iblk0 V c 1 t)
    (iblk0 V c 2 t) (iblk0 V c 3 t) (win0_4.index t (1 : Fin 2)) hT31 (blk_x V c t) (blk_h V c t)
    (fun r k => blk_w V c t _ rfl hT31 r k) (fun r => blk_b V c t _ rfl hT31 r) p q

/-- An index of the array is in point t's block iff each coordinate is in the block's range on its axis. -/
theorem mem_blk (t : Fin cfg0.N) (i : S8x8192.Idx) :
    i ∈ ((cfg0.win 4).blk t).view.set ↔ ∀ a : Fin 2, win0_4.index t a * S8x256.size a ≤ (i a).val
      ∧ (i a).val < win0_4.index t a * S8x256.size a + S8x256.size a := by
  show i ∈ ((View.whole main_v2).slice (win0_4.rect t)).set ↔ _
  rw [View.set_slice_whole, Rect.mem_set_unit]
  exact Iff.rfl

/-- The 32 column bands cover the array. -/
theorem cover (i : S8x8192.Idx) : ∃ t : Fin cfg0.N, (cfg0.win 4).flush t = true ∧ i ∈ ((cfg0.win 4).blk t).view.set := by
  have hi0 : (i 0).val < 8 := (i 0).isLt
  have hi1 : (i 1).val < 8192 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 256 ≤ (i 1).val ∧ (i 1).val < win0_4.index t (1 : Fin 2) * 256 + 256; omega

/-- The hidden-state array after the region. -/
theorem final (c : Dev nD) : (dat0 V c).arrAt 4 cfg0.N = hid V c :=
  (dat0 V c).arrAt_eq_of_cover 4 (hid V c) (fun t _ => flushed_eq V c t) cover

end Cert.KernelIdeal.Region0

end
-- ==== Proof.OutTile.lean ====
/-
  One tile of the read-out.

  The second kernel's body, at a grid point, holds the whole hidden state (8 rows of 8192), 512 rows of the read-out
  matrix and the matching 512 entries of its bias as a one-row matrix.  A cast of an array to its own shape is the
  identity, so is a rounding to a narrower format on the extended reals; the stored tile at (p, q) is

      Σ_k hidden (p, k) · w (q, k)  +  bias (0, q).
-/
import proofs.«129430_j69879117906300_2_alg».proof.Proof.Gen.KernelIdeal.Skeleton
import proofs.«129430_j69879117906300_2_alg».proof.Proof.LibMatmulRows
import Idealize.ShloMosaic.Lib.Pipeline.Value
import Idealize.ShloMosaic.Lib.ValueLayout

noncomputable section

namespace Cert.KernelIdeal.Tile

open Idealize.ShloMosaic Idealize.ShloMosaic.ValueIdx Cert.KernelIdeal Cert.KernelIdeal.Gen

/-- Rows of the hidden state against 512 rows of the read-out matrix, into the zero accumulator, at (p, q). -/
theorem rows512_apply (l : FVec Ideal S8x8192 .bf16) (r : FVec Ideal S512x8192 .bf16) (p : Fin 8) (q : Fin 512) :
    matmul dot_S8x8192_S512x8192_S8x512_1_1_0_0_n_n none l r (constant S8x512 .f32 0x00000000#32) (ix2 p q)
      = ∑ k : Fin 8192, l (ix2 p k) * r (ix2 q k) :=
  Cert.Lib.matmulRows_zero_apply (A := 8) (K := 8192) (B := 512) Facts₀.dot_S8x8192_S512x8192_S8x512_1_1_0_0_n_n_wf l r p q

/-- The bias row repeated over the 8 batch rows, at (p, q). -/
theorem biasRow512_apply (b : Vec Ideal S1x512 .f32) (p : Fin 8) (q : Fin 512) :
    broadcastTo S8x512 (shapeCast S1x512 b Facts₀.shapeCasts_S1x512_S1x512) Facts₀.broadcasts_S1x512_S8x512 (ix2 p q)
      = b (ix2 (0 : Fin 1) q) := by
  rw [shapeCast_self]
  exact broadcastTo_1b_ab_apply (a := 8) (b := 512) b Facts₀.broadcasts_S1x512_S8x512 p q

/-- The stored tile of the read-out at (p, q). -/
theorem out_tile (hid : Vec Ideal S8x8192 .f32) (w : Vec Ideal S512x8192 .f32) (b : Vec Ideal S1x512 .f32)
    (p : Fin 8) (q : Fin 512) :
    k1_pay1 hid w b (ix2 p q) = (∑ k : Fin 8192, hid (ix2 p k) * w (ix2 q k)) + b (ix2 (0 : Fin 1) q) := by
  unfold k1_pay1
  refine congrArg₂ (· + ·) ?_ ?_
  · refine (rows512_apply _ _ p q).trans ?_
    rw [shapeCast_self]
    rfl
  · exact biasRow512_apply b p q

end Cert.KernelIdeal.Tile

end
-- ==== Proof.OutArray.lean ====
/-
  The result array after the second kernel region.

  The region's grid has 4 points.  Point t holds the whole hidden-state array, rows 512·t … 512·t + 511 of the read-out
  matrix and entries 512·t … 512·t + 511 of the read-out bias row, and writes back columns 512·t … 512·t + 511 of the
  result: at (p, q) the tile's value is the cell's read-out at (p, 512·t + q).  The 4 column bands tile the 8 × 2048 array, so
  after the region the array is the cell's read-out of the arrays as the region found them.
-/
import proofs.«129430_j69879117906300_2_alg».proof.Proof.Gen.KernelIdeal.Frame
import proofs.«129430_j69879117906300_2_alg».proof.Proof.OutTile
import proofs.«129430_j69879117906300_2_alg».proof.Proof.RnnSpec
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem zeros2 : (![0, 0] : Fin 2 → Nat) = fun _ => 0 := funext fun a => by fin_cases a <;> rfl

/-! ### A tile, from the arrays its blocks are cut from -/

/-- If the body's three loads are cut from the hidden state Hd, the read-out matrix W₂ (rows 512·T …) and the bias row B
    (columns 512·T …), the stored tile at (p, q) is the cell's read-out of those arrays at (p, 512·T + q). -/
theorem tile_of_arrays (Hd : FVec Ideal ⟨2, ![8, 8192]⟩ .f32) (W₂ : FVec Ideal ⟨2, ![2048, 8192]⟩ .f32)
    (B : FVec Ideal ⟨2, ![1, 2048]⟩ .f32)
    (hd : Vec Ideal S8x8192 .f32) (w : Vec Ideal S512x8192 .f32) (b : Vec Ideal S1x512 .f32) (T : Nat) (hT : T ≤ 3)
    (hhd : hd = Hd)
    (hw : ∀ (r : Fin 512) (k : Fin 8192), w (ix2 r k) = W₂ (ix2 (⟨T * 512 + r.val, by have := r.isLt; omega⟩ : Fin 2048) k))
    (hb : ∀ r : Fin 512, b (ix2 (0 : Fin 1) r) = B (ix2 (0 : Fin 1) (⟨T * 512 + r.val, by have := r.isLt; omega⟩ : Fin 2048)))
    (p : Fin 8) (q : Fin 512) :
    k1_pay1 (View.ld hd r1_0) (View.ld w r1_1) (View.ld b r1_2) (ix2 p q)
      = Cert.Rnn.outAt Hd W₂ (fun j => B (ix2 (0 : Fin 1) j)) p (⟨T * 512 + q.val, by have := q.isLt; omega⟩ : Fin 2048) := by
  subst hhd
  refine (Tile.out_tile _ _ _ p q).trans ?_
  unfold Cert.Rnn.outAt
  have ex : ∀ k : Fin 8192, View.ld hd r1_0 (ix2 p k) = hd (ix2 p k) := fun k =>
    congrFun (View.ld_unit_zero (S := S8x8192) zeros2 _ hd) _
  have ew : ∀ k : Fin 8192, View.ld w r1_1 (ix2 q k) = w (ix2 q k) := fun k =>
    congrFun (View.ld_unit_zero (S := S512x8192) zeros2 _ w) _
  have eb : View.ld b r1_2 (ix2 (0 : Fin 1) q) = b (ix2 (0 : Fin 1) q) :=
    congrFun (View.ld_unit_zero (S := S1x512) zeros2 _ b) _
  simp only [ex, ew, eb, hw, hb]

/-! ### The region, at any entry contents -/

variable (V : (c : Dev nD) → (b : Ref sig .tc) → Buf (Elt Ideal) ((c : Thread nD τ).loc b))

/-- The cell's read-out of the arrays as the region finds them; the bias is the one row of its [1, 2048] matrix. -/
abbrev res (c : Dev nD) : S8x2048.Idx → Elt Ideal .f32 :=
  Cert.Rnn.out (V c main_v2) (V c main_arg4) (fun j => (V c main_v1 : S1x2048.Idx → Elt Ideal .f32) (ix2 (0 : Fin 1) j))

/-- The block indices over the grid: the hidden state is whole at every point; the read-out rows, the bias columns and
    the output columns move together, one band per point. -/
theorem idx_facts : ∀ t : Fin cfg1.N,
    win1_0.index t (0 : Fin 2) = 0 ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) = 0 ∧ win1_3.index t (1 : Fin 2) ≤ 3 :=
  (by decide +kernel : ∀ t : Fin grid1.N, _)

/-- Every column band is some point's. -/
theorem idx_onto : ∀ q : Fin 4, ∃ t : Fin cfg1.N, win1_3.index t = ![0, q.val] :=
  (by decide +kernel : ∀ q : Fin 4, ∃ t : Fin grid1.N, win1_3.index t = ![0, q.val])

/-- Window 0's block is all of the hidden state. -/
theorem blk_hd (c : Dev nD) (t : Fin cfg1.N) :
    (iblk1 V c 0 t : Vec Ideal S8x8192 .f32) = (V c main_v2 : S8x8192.Idx → Elt Ideal .f32) := by
  obtain ⟨e0, e1, -⟩ := idx_facts t
  funext j
  unfold iblk1
  rw [View.read_apply]
  show (V c main_v2 : S8x8192.Idx → Elt Ideal .f32) _ = V c main_v2 j
  refine congrArg (V c main_v2 : S8x8192.Idx → Elt Ideal .f32) ?_
  funext a
  apply Fin.ext
  match a with
  | ⟨0, _⟩ => show win1_0.index t (0 : Fin 2) * 8 + 1 * (j 0).val = (j 0).val; rw [e0]; omega
  | ⟨1, _⟩ => show win1_0.index t (1 : Fin 2) * 8192 + 1 * (j 1).val = (j 1).val; rw [e1]; omega

/-- Window 1's block is 512 rows of the read-out matrix, from row 512·T. -/
theorem blk_w (c : Dev nD) (t : Fin cfg1.N) (T : Nat) (hT : win1_3.index t (1 : Fin 2) = T) (hT3 : T ≤ 3)
    (r : Fin 512) (k : Fin 8192) :
    (iblk1 V c 1 t : Vec Ideal S512x8192 .f32) (ix2 r k)
      = (V c main_arg4 : S2048x8192.Idx → Elt Ideal .f32) (ix2 (⟨T * 512 + r.val, by have := r.isLt; omega⟩ : Fin 2048) k) := by
  obtain ⟨-, -, e0, e1, -⟩ := idx_facts t
  unfold iblk1
  rw [View.read_apply]
  show (V c main_arg4 : S2048x8192.Idx → Elt Ideal .f32) _ = _
  refine congrArg (V c main_arg4 : S2048x8192.Idx → Elt Ideal .f32) ?_
  funext a
  apply Fin.ext
  match a with
  | ⟨0, _⟩ => show win1_1.index t (0 : Fin 2) * 512 + 1 * r.val = T * 512 + r.val; rw [e0, hT]; omega
  | ⟨1, _⟩ => show win1_1.index t (1 : Fin 2) * 8192 + 1 * k.val = k.val; rw [e1]; omega

/-- Window 2's block is 512 entries of the read-out bias row, from column 512·T. -/
theorem blk_b (c : Dev nD) (t : Fin cfg1.N) (T : Nat) (hT : win1_3.index t (1 : Fin 2) = T) (hT3 : T ≤ 3)
    (r : Fin 512) :
    (iblk1 V c 2 t : Vec Ideal S1x512 .f32) (ix2 (0 : Fin 1) r)
      = (V c main_v1 : S1x2048.Idx → Elt Ideal .f32) (ix2 (0 : Fin 1) (⟨T * 512 + r.val, by have := r.isLt; omega⟩ : Fin 2048)) := by
  obtain ⟨-, -, -, -, e0, e1, -⟩ := idx_facts t
  unfold iblk1
  rw [View.read_apply]
  show (V c main_v1 : S1x2048.Idx → Elt Ideal .f32) _ = _
  refine congrArg (V c main_v1 : S1x2048.Idx → Elt Ideal .f32) ?_
  funext a
  apply Fin.ext
  match a with
  | ⟨0, _⟩ => show win1_2.index t (0 : Fin 2) * 1 + 1 * 0 = 0; rw [e0]
  | ⟨1, _⟩ => show win1_2.index t (1 : Fin 2) * 512 + 1 * r.val = T * 512 + r.val; rw [e1, hT]; omega

/-- An element of the output block at point t sits in the array at column 512·T + its own column. -/
theorem out_emb (t : Fin cfg1.N) (T : Nat) (hT : win1_3.index t (1 : Fin 2) = T) (hT3 : T ≤ 3) (p : Fin 8) (q : Fin 512) :
    (((cfg1.win 3).blk t).view.emb (ix2 p q) : S8x2048.Idx)
      = ix2 p (⟨T * 512 + q.val, by have := q.isLt; omega⟩ : Fin 2048) := by
  obtain ⟨-, -, -, -, -, -, e0, -⟩ := idx_facts t
  funext a
  apply Fin.ext
  match a with
  | ⟨0, _⟩ => show win1_3.index t (0 : Fin 2) * 8 + 1 * p.val = p.val; rw [e0]; omega
  | ⟨1, _⟩ => show win1_3.index t (1 : Fin 2) * 512 + 1 * q.val = T * 512 + q.val; rw [hT]; omega

/-- What point t writes back is its block of the cell's read-out. -/
theorem flushed_eq (c : Dev nD) (t : Fin cfg1.N) :
    (dat1 V c).flushed 3 t = ((cfg1.win 3).blk t).view.read (Elt Ideal) (res V c) := by
  show (cfg1.win 3).cut (grid1.coords t) ((dat1 V c).after 3 t) = _
  rw [after1_3]
  unfold out1_3
  rw [View.canon_unit_zero zeros2]
  have hT3 : win1_3.index t (1 : Fin 2) ≤ 3 := (idx_facts t).2.2.2.2.2.2.2
  funext j
  obtain ⟨p, q, rfl⟩ : ∃ (p : Fin 8) (q : Fin 512), j = ix2 p q := ⟨j 0, j 1, eq_ix2 j⟩
  show k1_pay1 (View.ld (iblk1 V c 0 t) r1_0) (View.ld (iblk1 V c 1 t) r1_1) (View.ld (iblk1 V c 2 t) r1_2) (ix2 p q)
    = res V c (((cfg1.win 3).blk t).view.emb (ix2 p q))
  rw [out_emb t _ rfl hT3 p q]
  exact tile_of_arrays (V c main_v2) (V c main_arg4) (V c main_v1) (iblk1 V c 0 t) (iblk1 V c 1 t) (iblk1 V c 2 t)
    (win1_3.index t (1 : Fin 2)) hT3 (blk_hd V c t) (fun r k => blk_w V c t _ rfl hT3 r k)
    (fun r => blk_b V c t _ rfl hT3 r) p q

/-- An index of the array is in point t's block iff each coordinate is in the block's range on its axis. -/
theorem mem_blk (t : Fin cfg1.N) (i : S8x2048.Idx) :
    i ∈ ((cfg1.win 3).blk t).view.set ↔ ∀ a : Fin 2, win1_3.index t a * S8x512.size a ≤ (i a).val
      ∧ (i a).val < win1_3.index t a * S8x512.size a + S8x512.size a := by
  show i ∈ ((View.whole main_v3).slice (win1_3.rect t)).set ↔ _
  rw [View.set_slice_whole, Rect.mem_set_unit]
  exact Iff.rfl

/-- The 4 column bands cover the array. -/
theorem cover (i : S8x2048.Idx) : ∃ t : Fin cfg1.N, (cfg1.win 3).flush t = true ∧ i ∈ ((cfg1.win 3).blk t).view.set := by
  have hi0 : (i 0).val < 8 := (i 0).isLt
  have hi1 : (i 1).val < 2048 := (i 1).isLt
  obtain ⟨t, ht⟩ := idx_onto ⟨(i 1).val / 512, by omega⟩
  have q0 : win1_3.index t (0 : Fin 2) = 0 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 512 ≤ (i 1).val ∧ (i 1).val < win1_3.index t (1 : Fin 2) * 512 + 512; omega

/-- The result array after the region. -/
theorem final (c : Dev nD) : (dat1 V c).arrAt 3 cfg1.N = res V c :=
  (dat1 V c).arrAt_eq_of_cover 3 (res V c) (fun t _ => flushed_eq V c t) cover

end Cert.KernelIdeal.Region1

end
-- ==== Proof.KernelValue.lean ====
/-
  The kernel program's result is the cell of the launch contents.

  Before the first region the two host reshapes have written each bias vector as a one-row matrix and touched nothing
  else, so the first region finds x, h, the joined weights and the read-out weights as launched and the bias row holding
  the bias vector.  It leaves the hidden-state array at the cell's hidden state and every other buffer alone; the second
  region finds that array, the read-out weights as launched and the read-out bias row, and leaves the result array at
  the cell's read-out.
-/
import proofs.«129430_j69879117906300_2_alg».proof.Proof.KernelRun
import proofs.«129430_j69879117906300_2_alg».proof.Proof.HiddenArray
import proofs.«129430_j69879117906300_2_alg».proof.Proof.OutArray
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The cell of the launch contents: its hidden state, -/
abbrev cellHidden (c : Dev nD) : S8x8192.Idx → Elt Ideal .f32 :=
  Cert.Rnn.hidden (m ((c : Thread nD τ).loc main_arg0)) (m ((c : Thread nD τ).loc main_arg1)) (m ((c : Thread nD τ).loc main_arg2))
    (fun q => (m ((c : Thread nD τ).loc main_arg3) : S8192.Idx → Elt Ideal .f32) (ix1 q))

/-- and its read-out. -/
abbrev cell (c : Dev nD) : S8x2048.Idx → Elt Ideal .f32 :=
  Cert.Rnn.out (cellHidden m c) (m ((c : Thread nD τ).loc main_arg4))
    (fun o => (m ((c : Thread nD τ).loc main_arg5) : S2048.Idx → Elt Ideal .f32) (ix1 o))

/-! ### What the first region finds -/

theorem entry_x (c : Dev nD) : (V1 m ρ c main_arg0 : S8x8192.Idx → Elt Ideal .f32) = m ((c : Thread nD τ).loc main_arg0) := by
  show StableHlo.after hostOps0 (W0 m ρ c) (Proc.devRef .tc main_arg0) = _
  after_results

theorem entry_h (c : Dev nD) : (V1 m ρ c main_arg1 : S8x8192.Idx → Elt Ideal .f32) = m ((c : Thread nD τ).loc main_arg1) := by
  show StableHlo.after hostOps0 (W0 m ρ c) (Proc.devRef .tc main_arg1) = _
  after_results

theorem entry_W (c : Dev nD) : (V1 m ρ c main_arg2 : S8192x16384.Idx → Elt Ideal .f32) = m ((c : Thread nD τ).loc main_arg2) := by
  show StableHlo.after hostOps0 (W0 m ρ c) (Proc.devRef .tc main_arg2) = _
  after_results

theorem entry_W₂ (c : Dev nD) : (V1 m ρ c main_arg4 : S2048x8192.Idx → Elt Ideal .f32) = m ((c : Thread nD τ).loc main_arg4) := by
  show StableHlo.after hostOps0 (W0 m ρ c) (Proc.devRef .tc main_arg4) = _
  after_results

/-- The bias row holds the bias vector. -/
theorem entry_bias (c : Dev nD) (q : Fin 8192) :
    (V1 m ρ c main_v0 : S1x8192.Idx → Elt Ideal .f32) (ix2 (0 : Fin 1) q)
      = (m ((c : Thread nD τ).loc main_arg3) : S8192.Idx → Elt Ideal .f32) (ix1 q) := by
  have e : (V1 m ρ c main_v0 : S1x8192.Idx → Elt Ideal .f32)
      = shapeCast S1x8192 (m ((c : Thread nD τ).loc main_arg3) : S8192.Idx → Elt Ideal .f32) Facts₀.shapeCasts_S8192_S1x8192 := by
    show StableHlo.after hostOps0 (W0 m ρ c) (Proc.devRef .tc main_v0) = _
    after_results
    rfl
  rw [e]
  exact shapeCast_a_1a_apply (a := 8192) _ _ 0 q

/-- The read-out bias row holds the read-out bias vector. -/
theorem entry_bias₂ (c : Dev nD) (o : Fin 2048) :
    (V1 m ρ c main_v1 : S1x2048.Idx → Elt Ideal .f32) (ix2 (0 : Fin 1) o)
      = (m ((c : Thread nD τ).loc main_arg5) : S2048.Idx → Elt Ideal .f32) (ix1 o) := by
  have e : (V1 m ρ c main_v1 : S1x2048.Idx → Elt Ideal .f32)
      = shapeCast S1x2048 (m ((c : Thread nD τ).loc main_arg5) : S2048.Idx → Elt Ideal .f32) Facts₀.shapeCasts_S2048_S1x2048 := by
    show StableHlo.after hostOps0 (W0 m ρ c) (Proc.devRef .tc main_v1) = _
    after_results
    rfl
  rw [e]
  exact shapeCast_a_1a_apply (a := 2048) _ _ 0 o

/-! ### What the second region finds -/

/-- The hidden-state array, left by the first region at the cell's hidden state. -/
theorem hidden_array (c : Dev nD) : (V2 m ρ c main_v2 : S8x8192.Idx → Elt Ideal .f32) = cellHidden m c := by
  refine ((hF0 m ρ c 4).symm.trans (Region0.final (V1 m ρ) c)).trans ?_
  show Cert.Rnn.hidden (V1 m ρ c main_arg0) (V1 m ρ c main_arg1) (V1 m ρ c main_arg2)
      (fun j => (V1 m ρ c main_v0 : S1x8192.Idx → Elt Ideal .f32) (ix2 (0 : Fin 1) j)) = _
  rw [entry_x, entry_h, entry_W, funext (entry_bias m ρ c)]

/-- The read-out weights: the first region left them alone. -/
theorem second_W₂ (c : Dev nD) : (V2 m ρ c main_arg4 : S2048x8192.Idx → Elt Ideal .f32) = m ((c : Thread nD τ).loc main_arg4) :=
  (W2_of_ne m ρ c main_arg4 (by decide)).trans (entry_W₂ m ρ c)

/-- The read-out bias row: likewise. -/
theorem second_bias₂ (c : Dev nD) (o : Fin 2048) :
    (V2 m ρ c main_v1 : S1x2048.Idx → Elt Ideal .f32) (ix2 (0 : Fin 1) o)
      = (m ((c : Thread nD τ).loc main_arg5) : S2048.Idx → Elt Ideal .f32) (ix1 o) :=
  (congrFun (W2_of_ne m ρ c main_v1 (by decide)) _).trans (entry_bias₂ m ρ c o)

/-! ### The result -/

/-- The result array after the second region is the cell of the launch contents. -/
theorem result_eq (c : Dev nD) : (V3 m ρ c main_v3 : S8x2048.Idx → Elt Ideal .f32) = cell m c := by
  refine ((hF1 m ρ c 3).symm.trans (Region1.final (V2 m ρ) c)).trans ?_
  show Cert.Rnn.out (V2 m ρ c main_v2) (V2 m ρ c main_arg4)
      (fun j => (V2 m ρ c main_v1 : S1x2048.Idx → Elt Ideal .f32) (ix2 (0 : Fin 1) j)) = _
  rw [hidden_array, second_W₂, funext (second_bias₂ m ρ c)]

/-- The program's run: the result at the cell of the launch contents, the arguments as launched. -/
theorem run_cell : θ_run defs (onTc (τ := τ) (main (F := Ideal))) ⟨m, fun _ => 0, ρ⟩ (fun r => ∀ c : Dev nD,
      r.2.mem ((c.tc : Thread nD τ).loc main_v3) = cell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run m ρ)

end Cert.KernelIdeal.Whole

end
-- ==== Proof.RefIsRnn.lean ====
/-
  The reference program computes the cell.

  Its thirteen operations are: the two halves of the joined weight matrix cut out by slices, each batch row of x and of
  h contracted against every row of its half, the two products added, the bias added along the rows, tanh, then the
  rows of the hidden state contracted against the rows of the read-out matrix and the read-out bias added along the rows.
  Read at an index, one operation at a time, that is the cell's two formulas, entry by entry: a slice reads its operand
  at the shifted column, a contraction over the one shared axis is the sum over that axis, and a vector broadcast along
  the rows reads its entry at the column.
-/
import proofs.«129430_j69879117906300_2_alg».proof.Proof.Gen.ReferenceIdeal.Read
import proofs.«129430_j69879117906300_2_alg».proof.Proof.RnnSpec

noncomputable section

namespace Cert.ReferenceIdeal.RefValue

open Idealize.ShloMosaic Idealize.ShloMosaic.ValueIdx Cert.ReferenceIdeal Cert.ReferenceIdeal.Read

/-! ### Where each operation reads its operands, in coordinates -/

theorem lhs_x (p : Fin 8) (q : Fin 8192) (k : Fin 8192) : lidx_main_v2 (ix2 p q) k = ix2 p k :=
  funext fun a => Fin.ext (by match a with | ⟨0, _⟩ => rfl | ⟨1, _⟩ => rfl)

theorem rhs_x (p : Fin 8) (q : Fin 8192) (k : Fin 8192) :
    idx_main_v0 (ridx_main_v2 (ix2 p q) k) = ix2 q (Cert.Rnn.colX k) :=
  funext fun a => Fin.ext (by match a with | ⟨0, _⟩ => rfl | ⟨1, _⟩ => rfl)

theorem lhs_h (p : Fin 8) (q : Fin 8192) (k : Fin 8192) : lidx_main_v3 (ix2 p q) k = ix2 p k :=
  funext fun a => Fin.ext (by match a with | ⟨0, _⟩ => rfl | ⟨1, _⟩ => rfl)

theorem rhs_h (p : Fin 8) (q : Fin 8192) (k : Fin 8192) :
    idx_main_v1 (ridx_main_v3 (ix2 p q) k) = ix2 q (Cert.Rnn.colH k) :=
  funext fun a => Fin.ext (by match a with | ⟨0, _⟩ => rfl | ⟨1, _⟩ => rfl)

theorem bias_idx (p : Fin 8) (q : Fin 8192) : idx_main_v5 (idx_main_v6 (ix2 p q)) = ix1 q :=
  funext fun a => Fin.ext (by match a with | ⟨0, _⟩ => rfl)

theorem lhs_out (p : Fin 8) (o : Fin 2048) (k : Fin 8192) : lidx_main_v9 (ix2 p o) k = ix2 p k :=
  funext fun a => Fin.ext (by match a with | ⟨0, _⟩ => rfl | ⟨1, _⟩ => rfl)

theorem rhs_out (p : Fin 8) (o : Fin 2048) (k : Fin 8192) : ridx_main_v9 (ix2 p o) k = ix2 o k :=
  funext fun a => Fin.ext (by match a with | ⟨0, _⟩ => rfl | ⟨1, _⟩ => rfl)

theorem bias2_idx (p : Fin 8) (o : Fin 2048) : idx_main_v10 (idx_main_v11 (ix2 p o)) = ix1 o :=
  funext fun a => Fin.ext (by match a with | ⟨0, _⟩ => rfl)

/-! ### The two layers -/

/-- The reference's hidden state is the cell's. -/
theorem hidden_eq (x0 x1 : (⟨S8x8192, .f32⟩ : BufTy).Contents (Elt Ideal)) (x2 : (⟨S8192x16384, .f32⟩ : BufTy).Contents (Elt Ideal))
    (x3 : (⟨S8192, .f32⟩ : BufTy).Contents (Elt Ideal)) :
    val_main_v8 (F := Ideal) x0 x1 x2 x3 = Cert.Rnn.hidden x0 x1 x2 (fun q => x3 (ix1 q)) := by
  funext i
  obtain ⟨p, q, rfl⟩ : ∃ (p : Fin 8) (q : Fin 8192), i = ix2 p q := ⟨i 0, i 1, eq_ix2 i⟩
  rw [val_main_v8_apply, val_main_v7_apply, val_main_v4_apply, val_main_v2_apply, val_main_v3_apply, val_main_v6_apply,
    val_main_v5_apply, Cert.Rnn.hidden_apply]
  simp only [val_main_v0_apply, val_main_v1_apply, lhs_x, rhs_x, lhs_h, rhs_h, bias_idx]
  rfl

/-- The reference's result is the cell's read-out of its hidden state. -/
theorem result_eq (x0 x1 : (⟨S8x8192, .f32⟩ : BufTy).Contents (Elt Ideal)) (x2 : (⟨S8192x16384, .f32⟩ : BufTy).Contents (Elt Ideal))
    (x3 : (⟨S8192, .f32⟩ : BufTy).Contents (Elt Ideal)) (x4 : (⟨S2048x8192, .f32⟩ : BufTy).Contents (Elt Ideal))
    (x5 : (⟨S2048, .f32⟩ : BufTy).Contents (Elt Ideal)) :
    val_main_v12 (F := Ideal) x0 x1 x2 x3 x4 x5
      = Cert.Rnn.out (Cert.Rnn.hidden x0 x1 x2 (fun q => x3 (ix1 q))) x4 (fun o => x5 (ix1 o)) := by
  funext i
  obtain ⟨p, o, rfl⟩ : ∃ (p : Fin 8) (o : Fin 2048), i = ix2 p o := ⟨i 0, i 1, eq_ix2 i⟩
  rw [val_main_v12_apply, val_main_v9_apply, val_main_v11_apply, val_main_v10_apply, hidden_eq, Cert.Rnn.out_apply]
  simp only [lhs_out, rhs_out, bias2_idx]
  rfl

end Cert.ReferenceIdeal.RefValue

end
-- ==== Proof.lean ====
/-
  A recurrent cell with a linear read-out: a two-kernel program against its plain reference, on the extended reals.

  With a batch of 8 rows, an input x and a previous state h of width 8192, a joined weight matrix W (8192 × 16384, its
  first 8192 columns acting on x and its last 8192 on h), a bias b, a read-out matrix W₂ (2048 × 8192) and a bias b₂,
  both programs compute

      hidden = tanh ((x · W[:, :8192]ᵀ + h · W[:, 8192:]ᵀ) + b),        out = hidden · W₂ᵀ + b₂.

  The kernel program does it in two regions.  The first walks 32 bands of 256 hidden units: each point contracts x and h
  against its 256 weight rows (a product of rows with rows into a zero accumulator, after roundings to a narrower format
  that are the identity on the extended reals), adds the two products, adds its 256 bias entries along the rows, applies
  tanh and writes the band back.  The second walks 4 bands of 512 outputs over the finished hidden state in the same
  way, without the tanh.  The reference slices the two halves of W, contracts, adds, broadcasts the bias, applies tanh,
  contracts again and adds the second bias.

  Entry by entry the two are the same expression, with the same grouping of the sums: no algebraic law is needed, and
  the finiteness of the inputs is never used.  The frames of the two kernel programs are the generated ones; the
  reference's frame is its run with the result dropped; no operation was rewritten by the idealization, so there is
  nothing to preserve.
-/
import proofs.«129430_j69879117906300_2_alg».proof.Defs
import proofs.«129430_j69879117906300_2_alg».proof.Proof.Gen.Kernel
import proofs.«129430_j69879117906300_2_alg».proof.Proof.Gen.Kernel.Skeleton
import proofs.«129430_j69879117906300_2_alg».proof.Proof.Gen.Kernel.Launch
import proofs.«129430_j69879117906300_2_alg».proof.Proof.Gen.Kernel.Points
import proofs.«129430_j69879117906300_2_alg».proof.Proof.Gen.Kernel.Frame
import proofs.«129430_j69879117906300_2_alg».proof.Proof.Gen.KernelIdeal
import proofs.«129430_j69879117906300_2_alg».proof.Proof.Gen.KernelIdeal.Skeleton
import proofs.«129430_j69879117906300_2_alg».proof.Proof.Gen.KernelIdeal.Launch
import proofs.«129430_j69879117906300_2_alg».proof.Proof.Gen.KernelIdeal.Points
import proofs.«129430_j69879117906300_2_alg».proof.Proof.Gen.KernelIdeal.Frame
import proofs.«129430_j69879117906300_2_alg».proof.Proof.Gen.ReferenceIdeal
import proofs.«129430_j69879117906300_2_alg».proof.Proof.Gen.ReferenceIdeal.Run
import proofs.«129430_j69879117906300_2_alg».proof.Proof.Gen.ReferenceIdeal.Read
import proofs.«129430_j69879117906300_2_alg».proof.Proof.Gen.Pre_finite_inputs
import proofs.«129430_j69879117906300_2_alg».proof.Proof.KernelValue
import proofs.«129430_j69879117906300_2_alg».proof.Proof.RefIsRnn
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, the kernel program's result array and the reference's both end at
    the cell of those arguments. -/
theorem algebraic : Cert.algebraic_KernelIdeal_ReferenceIdeal := by
  intro m ρ m' ρ' _ hagree
  refine ⟨fun c => Cert.KernelIdeal.Whole.cell m c, Cert.KernelIdeal.Whole.run_cell m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v12_eq, Cert.ReferenceIdeal.RefValue.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
